-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x192x64800 : Shape := ⟨3, ![4, 192, 64800]⟩
abbrev S_ : Shape := ⟨0, ![]⟩

class Facts : Prop where
  bcast_S_S4x192x64800 : S_.BroadcastsInDim S4x192x64800 (![] : Fin 0 → Fin S4x192x64800.rank)
  reducesTo_S4x192x64800_S_d0_1_2 : S4x192x64800.ReducesTo [0, 1, 2] S_
  h_S_ : 0 < S_.numel

variable [Facts]

def fn {F : FTy → Type} [FloatOps F] (main_arg0 : FVec F S4x192x64800 .f32) : IVec S_ 1 :=
  let main_v0 : FVec F S4x192x64800 .f32 := Host.absf main_arg0
  let main_cst : FVec F S_ .f32 := constant S_ .f32 0x7F800000#32
  let main_v1 : FVec F S4x192x64800 .f32 := broadcastInDim S4x192x64800 ![] bcast_S_S4x192x64800 main_cst
  let main_v2 : IVec S4x192x64800 1 := cmpf .olt main_v0 main_v1
  let main_c : IVec S_ 1 := constantI S_ 1 1#1
  let main_v3 : IVec S_ 1 := (fun x v => Host.reduce IntOp.andi x v reducesTo_S4x192x64800_S_d0_1_2 h_S_) main_v2 main_c
  main_v3
-- ==== Kernel.lean ====
abbrev S4x192x64800 : Shape := ⟨3, ![4, 192, 64800]⟩
abbrev S768x64800 : Shape := ⟨2, ![768, 64800]⟩
abbrev S16x64800 : Shape := ⟨2, ![16, 64800]⟩
abbrev S4x192x180x360 : Shape := ⟨4, ![4, 192, 180, 360]⟩

abbrev nBuf : Space → Nat
  | .hbm => 4
  | .vmem => 4
  | .smem => 0
  | _ => 0

abbrev bufTy : (tb : Table) → Fin (tcTables nBuf tb) → BufTy
  | .hbm, ⟨0, _⟩ => ⟨S4x192x64800, .f32⟩
  | .hbm, ⟨1, _⟩ => ⟨S768x64800, .f32⟩
  | .hbm, ⟨2, _⟩ => ⟨S768x64800, .f32⟩
  | .hbm, ⟨3, _⟩ => ⟨S4x192x180x360, .f32⟩
  | .local _ .vmem, ⟨0, _⟩ => ⟨S16x64800, .f32⟩
  | .local _ .vmem, ⟨1, _⟩ => ⟨S16x64800, .f32⟩
  | .local _ .vmem, ⟨2, _⟩ => ⟨S16x64800, .f32⟩
  | .local _ .vmem, ⟨3, _⟩ => ⟨S16x64800, .f32⟩
  | _, _ => ⟨S4x192x64800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x64800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4x192x64800_S768x64800 : S4x192x64800.ShapeCasts S768x64800
  inb_S16x64800_S16x64800_0_0 : ∀ a, (![0, 0] : Fin 2 → Nat) a + S16x64800.size a ≤ S16x64800.size a
  h_S16x64800 : 0 < S16x64800.numel
  shapeCasts_S16x64800_S16x64800 : S16x64800.ShapeCasts S16x64800
  shapeCasts_S768x64800_S4x192x180x360 : S768x64800.ShapeCasts S4x192x180x360
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64800.size a ≤ S768x64800.size a
  hwx0_0 : ∀ i : grid0.Coords, EltTy.bits .f32 = 32 ∨ (Rect.block (s := S768x64800) S16x64800.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64800.size a ≤ S768x64800.size a
  hwx0_1 : ∀ i : grid0.Coords, EltTy.bits .f32 = 32 ∨ (Rect.block (s := S768x64800) S16x64800.size (cc0_transform_1 i) (hinb0_1 i)).WholeWords (EltTy.packing .f32)

variable [Facts₀]

abbrev win0_0 : Pipeline.Window sig grid0 :=
  Pipeline.Window.ofSpec (Memref.whole main_v0) S16x64800.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x64800.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x192x64800 : Shape := ⟨3, ![4, 192, 64800]⟩
abbrev S180 : Shape := ⟨1, ![180]⟩
abbrev S_ : Shape := ⟨0, ![]⟩
abbrev S360 : Shape := ⟨1, ![360]⟩
abbrev S180x1 : Shape := ⟨2, ![180, 1]⟩
abbrev S1x360 : Shape := ⟨2, ![1, 360]⟩
abbrev S180x360 : Shape := ⟨2, ![180, 360]⟩
abbrev S64800 : Shape := ⟨1, ![64800]⟩
abbrev S64800x1 : Shape := ⟨2, ![64800, 1]⟩
abbrev S4x192x180x360 : Shape := ⟨4, ![4, 192, 180, 360]⟩

abbrev nBuf : Space → Nat
  | .hbm => 30
  | .vmem => 0
  | .smem => 0
  | _ => 0

abbrev bufTy : (tb : Table) → Fin (tcTables nBuf tb) → BufTy
  | .hbm, ⟨0, _⟩ => ⟨S4x192x64800, .f32⟩
  | .hbm, ⟨1, _⟩ => ⟨S180, .i32⟩
  | .hbm, ⟨2, _⟩ => ⟨S_, .i32⟩
  | .hbm, ⟨3, _⟩ => ⟨S180, .i32⟩
  | .hbm, ⟨4, _⟩ => ⟨S180, .i32⟩
  | .hbm, ⟨5, _⟩ => ⟨S360, .i32⟩
  | .hbm, ⟨6, _⟩ => ⟨S_, .i32⟩
  | .hbm, ⟨7, _⟩ => ⟨S360, .i32⟩
  | .hbm, ⟨8, _⟩ => ⟨S360, .i32⟩
  | .hbm, ⟨9, _⟩ => ⟨S180x1, .i32⟩
  | .hbm, ⟨10, _⟩ => ⟨S_, .i32⟩
  | .hbm, ⟨11, _⟩ => ⟨S180x1, .i32⟩
  | .hbm, ⟨12, _⟩ => ⟨S180x1, .i32⟩
  | .hbm, ⟨13, _⟩ => ⟨S1x360, .i32⟩
  | .hbm, ⟨14, _⟩ => ⟨S180x360, .i32⟩
  | .hbm, ⟨15, _⟩ => ⟨S180x360, .i32⟩
  | .hbm, ⟨16, _⟩ => ⟨S180x360, .i32⟩
  | .hbm, ⟨17, _⟩ => ⟨S64800, .i32⟩
  | .hbm, ⟨18, _⟩ => ⟨S_, .f32⟩
  | .hbm, ⟨19, _⟩ => ⟨S4x192x64800, .f32⟩
  | .hbm, ⟨20, _⟩ => ⟨S_, .i32⟩
  | .hbm, ⟨21, _⟩ => ⟨S64800, .i32⟩
  | .hbm, ⟨22, _⟩ => ⟨S64800, .i1⟩
  | .hbm, ⟨23, _⟩ => ⟨S_, .i32⟩
  | .hbm, ⟨24, _⟩ => ⟨S64800, .i32⟩
  | .hbm, ⟨25, _⟩ => ⟨S64800, .i32⟩
  | .hbm, ⟨26, _⟩ => ⟨S64800, .i32⟩
  | .hbm, ⟨27, _⟩ => ⟨S64800x1, .i32⟩
  | .hbm, ⟨28, _⟩ => ⟨S4x192x64800, .f32⟩
  | .hbm, ⟨29, _⟩ => ⟨S4x192x180x360, .f32⟩
  | _, _ => ⟨S4x192x64800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S180 : S_.BroadcastsInDim S180 (![] : Fin 0 → Fin S180.rank)
  bcast_S_S360 : S_.BroadcastsInDim S360 (![] : Fin 0 → Fin S360.rank)
  bcast_S180_S180x1_0 : S180.BroadcastsInDim S180x1 (![0] : Fin 1 → Fin S180x1.rank)
  bcast_S_S180x1 : S_.BroadcastsInDim S180x1 (![] : Fin 0 → Fin S180x1.rank)
  bcast_S360_S1x360_1 : S360.BroadcastsInDim S1x360 (![1] : Fin 1 → Fin S1x360.rank)
  bcast_S180x1_S180x360_0_1 : S180x1.BroadcastsInDim S180x360 (![0, 1] : Fin 2 → Fin S180x360.rank)
  bcast_S1x360_S180x360_0_1 : S1x360.BroadcastsInDim S180x360 (![0, 1] : Fin 2 → Fin S180x360.rank)
  shapeCasts_S180x360_S64800 : S180x360.ShapeCasts S64800
  bcast_S_S4x192x64800 : S_.BroadcastsInDim S4x192x64800 (![] : Fin 0 → Fin S4x192x64800.rank)
  bcast_S_S64800 : S_.BroadcastsInDim S64800 (![] : Fin 0 → Fin S64800.rank)
  bcast_S64800_S64800x1_0 : S64800.BroadcastsInDim S64800x1 (![0] : Fin 1 → Fin S64800x1.rank)
  shapeCasts_S4x192x64800_S4x192x180x360 : S4x192x64800.ShapeCasts S4x192x180x360
  scatter_S4x192x64800_S64800x1_S4x192x64800_01_2_2_1_wf : ScatterDims.WF S4x192x64800 S64800x1 S4x192x64800 [0, 1] [2] [2] 1

variable [Facts₀]

def scatter_S4x192x64800_S64800x1_S4x192x64800_01_2_2_1 : ScatterDims S4x192x64800 S64800x1 S4x192x64800 where
  updateWindowDims := [0, 1]
  insertedWindowDims := [2]
  scatterDimsToOperandDims := [2]
  indexVectorDim := 1
  wf := scatter_S4x192x64800_S64800x1_S4x192x64800_01_2_2_1_wf

class Facts : Prop extends Facts₀ where

variable [Facts]
-- ==== Proof.LibScatterLastAxis.lean ====
/-
  A float scatter-add along the LAST axis of a rank-3 array whose index column names every position once.

  The operand, and the updates, have shape [A, B, L]; the scatter indices have shape [L, 1]. The dimension numbers are
  update_window_dims = [0, 1], inserted_window_dims = [2], scatter_dims_to_operand_dims = [2], index_vector_dim = 1:
  the update element (a, b, l) is added to the operand element (a, b, idx[l, 0]). When the index column is the identity,
  idx[l, 0] = l read as a signed integer, update (a, b, l) lands on operand element (a, b, l) and on no other, so at the
  ideal instance — where the scatter is each operand element plus the sum of the updates landing on it — the result at
  an index is the operand there plus the update there.
-/
import Idealize.ShloMosaic.PureOps.Ideal
import Idealize.ShloMosaic.Lib.ValueIdx

noncomputable section

open scoped BigOperators

namespace Idealize.ShloMosaic.ScatterLastAxis

open Idealize.ShloMosaic Idealize.ShloMosaic.ValueIdx

/-- The dimension numbers of a scatter along the last axis of an [A, B, L] array by an [L, 1] index column, the updates
    an [A, B, L] array; their conditions `wf` are decided on a program's literal shapes. -/
abbrev lastAxisDims (A B L : Nat)
    (wf : ScatterDims.WF ⟨3, ![A, B, L]⟩ ⟨2, ![L, 1]⟩ ⟨3, ![A, B, L]⟩ [0, 1] [2] [2] 1) :
    ScatterDims ⟨3, ![A, B, L]⟩ ⟨2, ![L, 1]⟩ ⟨3, ![A, B, L]⟩ where
  updateWindowDims := [0, 1]
  insertedWindowDims := [2]
  scatterDimsToOperandDims := [2]
  indexVectorDim := 1
  wf := wf

variable {A B L w : Nat}

/-- The last coordinate of an [A, B, L] index is below L. -/
theorem idx3_lt2 (j : (⟨3, ![A, B, L]⟩ : Shape).Idx) : (j 2).val < L := (j 2).isLt

/-- The position (l, 0) of the index column that an update with last coordinate l reads. -/
abbrev colIdx (j : (⟨3, ![A, B, L]⟩ : Shape).Idx) : (⟨2, ![L, 1]⟩ : Shape).Idx :=
  ix2 (⟨(j 2).val, idx3_lt2 j⟩ : Fin L) (⟨0, Nat.one_pos⟩ : Fin 1)

variable (wf : ScatterDims.WF ⟨3, ![A, B, L]⟩ ⟨2, ![L, 1]⟩ ⟨3, ![A, B, L]⟩ [0, 1] [2] [2] 1)

/-- The scatter-indices index update (a, b, l) reads its one start component at: (l, 0). -/
theorem siIdx_eq (j : (⟨3, ![A, B, L]⟩ : Shape).Idx) (c : Fin (lastAxisDims A B L wf).scatterDimsToOperandDims.length) :
    (lastAxisDims A B L wf).siIdx j c = colIdx j := by
  funext b; refine Fin.ext ?_
  match b with
  | ⟨0, _⟩ => rfl
  | ⟨1, _⟩ =>
    have hc : c.val = 0 := by have := c.isLt; simpa using this
    show c.val = 0
    exact hc

/-- On the last axis the window starts where the index column says. -/
theorem start_last (j : (⟨3, ![A, B, L]⟩ : Shape).Idx) (idx : IVec ⟨2, ![L, 1]⟩ w) :
    (lastAxisDims A B L wf).start j idx 2 = (idx (colIdx j)).toInt := by
  unfold ScatterDims.start
  rw [dif_pos (show (2 : Fin 3) ∈ (lastAxisDims A B L wf).scatterDimsToOperandDims from List.mem_singleton.mpr rfl)]
  exact congrArg (fun k => (idx k).toInt) (siIdx_eq wf j _)

/-- On the two leading axes it starts at zero: the index column names neither. -/
theorem start_lead (j : (⟨3, ![A, B, L]⟩ : Shape).Idx) (idx : IVec ⟨2, ![L, 1]⟩ w) (a : Fin 3) (ha : a ≠ 2) :
    (lastAxisDims A B L wf).start j idx a = 0 := by
  unfold ScatterDims.start
  rw [dif_neg (show a ∉ (lastAxisDims A B L wf).scatterDimsToOperandDims from fun h => ha (List.mem_singleton.mp h))]

/-- The window coordinate is the update's own on the two leading axes and zero on the last. -/
theorem window_eq (j : (⟨3, ![A, B, L]⟩ : Shape).Idx) (a : Fin 3) :
    (lastAxisDims A B L wf).window j a = if a = 2 then 0 else (j a).val := by
  match a with
  | ⟨0, _⟩ => rfl
  | ⟨1, _⟩ => rfl
  | ⟨2, _⟩ => rfl

/-- With the identity index column every update lands on its own position. -/
theorem resultIdx_self (idx : IVec ⟨2, ![L, 1]⟩ w)
    (hid : ∀ l : Fin L, (idx (ix2 l (⟨0, Nat.one_pos⟩ : Fin 1))).toInt = (l.val : Int))
    (j : (⟨3, ![A, B, L]⟩ : Shape).Idx) :
    (lastAxisDims A B L wf).resultIdx? j idx = some j := by
  have hsum : ∀ a : Fin 3, (lastAxisDims A B L wf).start j idx a + ((lastAxisDims A B L wf).window j a : Int) = ((j a).val : Int) := by
    intro a
    rw [window_eq]
    by_cases ha : a = 2
    · subst ha
      rw [start_last, if_pos rfl, hid ⟨(j 2).val, idx3_lt2 j⟩]; simp
    · rw [start_lead wf j idx a ha, if_neg ha]; simp
  unfold ScatterDims.resultIdx?
  rw [dif_pos (fun a => by rw [hsum a]; exact ⟨Int.natCast_nonneg _, by exact_mod_cast (j a).isLt⟩)]
  refine congrArg some (funext fun a => Fin.ext ?_)
  show ((lastAxisDims A B L wf).start j idx a + ((lastAxisDims A B L wf).window j a : Int)).toNat = (j a).val
  rw [hsum a]; simp

/-- THE SCATTER READ AT AN INDEX: with the identity index column, at the ideal instance, the operand there plus the
    update there. -/
theorem scatterAdd_identity_apply (x : FVec Ideal ⟨3, ![A, B, L]⟩ .f32) (idx : IVec ⟨2, ![L, 1]⟩ w)
    (upd : FVec Ideal ⟨3, ![A, B, L]⟩ .f32)
    (hid : ∀ l : Fin L, (idx (ix2 l (⟨0, Nat.one_pos⟩ : Fin 1))).toInt = (l.val : Int))
    (i : (⟨3, ![A, B, L]⟩ : Shape).Idx) :
    Host.scatterAdd (lastAxisDims A B L wf) x idx upd i = x i + upd i := by
  show x i + ∑ j ∈ Finset.univ.filter (fun j => (lastAxisDims A B L wf).resultIdx? j idx = some i), upd j = x i + upd i
  have hf : (Finset.univ.filter fun j => (lastAxisDims A B L wf).resultIdx? j idx = some i) = {i} := by
    ext j
    simp only [Finset.mem_filter, Finset.mem_univ, true_and, Finset.mem_singleton]
    rw [resultIdx_self wf idx hid j]
    exact Option.some_inj
  rw [hf, Finset.sum_singleton]

end Idealize.ShloMosaic.ScatterLastAxis

end
-- ==== Proof.FoldSpec.lean ====
/-
  The specification: folding the last axis of a [4, 192, 64800] array into a 180 × 360 image.

  The result at (a, b, h, w) is the argument at (a, b, 360·h + w): with a 1 × 1 kernel, unit stride and no padding,
  every column of the input is one pixel of the output, in row-major order. Both programs arrive at this re-indexing
  through reshapes — a reshape keeps the row-major position of every element — so this module also reads, at an index,
  the one reshape [4, 192, 64800] → [4, 192, 180, 360] and the pair [4, 192, 64800] → [768, 64800] → [4, 192, 180, 360]
  through the rows-by-columns view.
-/
import Idealize.ShloMosaic.PureOps.Ideal
import Idealize.ShloMosaic.Lib.ValueIdx
import Idealize.ShloMosaic.Lib.Pipeline.Value

noncomputable section

namespace Cert.FoldSpec

open Idealize.ShloMosaic Idealize.ShloMosaic.ValueIdx

/-- The argument's shape, the rows-by-columns view of it, and the image's shape. -/
abbrev SIn : Shape := ⟨3, ![4, 192, 64800]⟩
abbrev SFlat : Shape := ⟨2, ![768, 64800]⟩
abbrev SOut : Shape := ⟨4, ![4, 192, 180, 360]⟩

theorem out_lt0 (i : SOut.Idx) : (i 0).val < 4 := (i 0).isLt
theorem out_lt1 (i : SOut.Idx) : (i 1).val < 192 := (i 1).isLt
theorem out_lt2 (i : SOut.Idx) : (i 2).val < 180 := (i 2).isLt
theorem out_lt3 (i : SOut.Idx) : (i 3).val < 360 := (i 3).isLt

/-- Where pixel (a, b, h, w) comes from: column 360·h + w of row (a, b). -/
def src (i : SOut.Idx) : SIn.Idx :=
  ix3 (⟨(i 0).val, out_lt0 i⟩ : Fin 4) (⟨(i 1).val, out_lt1 i⟩ : Fin 192)
    (⟨(i 2).val * 360 + (i 3).val, by have := out_lt2 i; have := out_lt3 i; omega⟩ : Fin 64800)

/-- The same element in the rows-by-columns view: row 192·a + b, column 360·h + w. -/
def srcFlat (i : SOut.Idx) : SFlat.Idx :=
  ix2 (⟨(i 0).val * 192 + (i 1).val, by have := out_lt0 i; have := out_lt1 i; omega⟩ : Fin 768)
    (⟨(i 2).val * 360 + (i 3).val, by have := out_lt2 i; have := out_lt3 i; omega⟩ : Fin 64800)

/-- THE SPECIFICATION: the image of an argument array, index by index. -/
def image {α : Type} (x : SIn.Idx → α) : SOut.Idx → α := fun i => x (src i)

/-- One reshape [4, 192, 64800] → [4, 192, 180, 360] is the image. -/
theorem shapeCast_eq_image {α : Type} (x : SIn.Idx → α) (h : SIn.ShapeCasts SOut) :
    shapeCast SOut x h = image x := by
  funext i
  refine shapeCast_apply x h i (src i) ?_
  rw [Shape.rowMajor_val_three, Shape.rowMajor_val_four]
  show (((i 0).val * 192 + (i 1).val) * 64800 + ((i 2).val * 360 + (i 3).val))
    = ((((i 0).val * 192 + (i 1).val) * 180 + (i 2).val) * 360 + (i 3).val)
  omega

/-- The reshape to rows by columns followed by the reshape to the image's shape is the image too. -/
theorem shapeCast_flat_eq_image {α : Type} (x : SIn.Idx → α) (h₁ : SIn.ShapeCasts SFlat) (h₂ : SFlat.ShapeCasts SOut) :
    shapeCast SOut (shapeCast SFlat x h₁) h₂ = image x := by
  funext i
  refine (shapeCast_apply (shapeCast SFlat x h₁) h₂ i (srcFlat i) ?_).trans ?_
  · rw [Shape.rowMajor_val_two, Shape.rowMajor_val_four]
    show ((i 0).val * 192 + (i 1).val) * 64800 + ((i 2).val * 360 + (i 3).val)
      = ((((i 0).val * 192 + (i 1).val) * 180 + (i 2).val) * 360 + (i 3).val)
    omega
  · refine shapeCast_apply x h₁ (srcFlat i) (src i) ?_
    rw [Shape.rowMajor_val_three, Shape.rowMajor_val_two]
    rfl

end Cert.FoldSpec

end
-- ==== Proof.FlatIndexWords.lean ====
/-
  The 32-bit integer arithmetic behind the reference's flat scatter index.

  The reference computes, for a position n = 360·q + r of the flattened image (q < 180 the row, r < 360 the column),
  the word (q·1)·360 + r·1, wraps a negative value around by adding 64800, and uses the result as the scatter index.
  All numbers stay below 64800 < 2³¹, so nothing wraps: the word is n itself, it is not negative, and read as a
  signed integer it is n.
-/
import Idealize.ShloMosaic.PureOps.Ideal
import Idealize.ShloMosaic.Lib.ValueIdx

namespace Cert.FlatIndexWords

open Idealize.ShloMosaic Idealize.ShloMosaic.ValueIdx

/-- Row times 360 plus column, in 32-bit words, is the flat position. -/
theorem row_col_word (n : Nat) (h : n < 64800) :
    IntOp.addi (IntOp.muli (IntOp.muli (BitVec.ofNat 32 (n / 360)) 1#32) 360#32) (IntOp.muli (BitVec.ofNat 32 (n % 360)) 1#32)
      = BitVec.ofNat 32 n := by
  unfold IntOp.addi IntOp.muli
  apply BitVec.eq_of_toNat_eq
  simp only [BitVec.toNat_add, BitVec.toNat_mul, BitVec.toNat_ofNat, Nat.reducePow, Nat.reduceMod, Nat.mul_one]
  omega

/-- A flat position read as a signed integer is itself. -/
theorem toInt_small (n : Nat) (h : n < 64800) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- A flat position is not negative as a signed word. -/
theorem not_negative (n : Nat) (h : n < 64800) : IntOp.cmpi .slt (BitVec.ofNat 32 n) 0#32 = 0#1 := by
  unfold IntOp.cmpi
  have hs : (BitVec.ofNat 32 n).slt 0#32 = false := by
    rw [BitVec.slt, toInt_small n h]
    simp
  simp only [hs]
  rfl

/-- So the wrap-around of a negative index leaves it alone. -/
theorem wrap_small (n : Nat) (h : n < 64800) (alt : BitVec 32) :
    Scalar.select (IntOp.cmpi .slt (BitVec.ofNat 32 n) 0#32) alt (BitVec.ofNat 32 n) = BitVec.ofNat 32 n := by
  rw [not_negative n h, select_zero]

end Cert.FlatIndexWords
-- ==== Proof.RefValue.lean ====
/-
  The reference computes the image.

  The reference builds the flat index lh·360 + lw of every pixel, adds the argument array into an array of zeros at
  those positions along the last axis, and reshapes the sum to [4, 192, 180, 360]. The flat index of position n is n
  (no 32-bit word wraps below 64800), so the scatter adds element (a, b, n) of the argument to the zero at (a, b, n) and
  to nothing else: the sum is 0 + x = x on every extended real, infinite ones included, and the reshape of x is the image.
-/
import proofs.«158821_g20031727468695_cont_8to1_495_2_alg».proof.Proof.Gen.ReferenceIdeal.Read
import proofs.«158821_g20031727468695_cont_8to1_495_2_alg».proof.Proof.LibScatterLastAxis
import proofs.«158821_g20031727468695_cont_8to1_495_2_alg».proof.Proof.FoldSpec
import proofs.«158821_g20031727468695_cont_8to1_495_2_alg».proof.Proof.FlatIndexWords
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The flat index before the wrap-around: position n holds the word n. -/
theorem flat_index (k : S64800.Idx) : val_main_v13 (F := Ideal) k = BitVec.ofNat 32 (k 0).val := by
  rw [val_main_v13_apply, val_main_v12_apply, val_main_v10_apply, val_main_v8_apply, val_main_v6_apply, val_main_v2_apply,
    val_main_v0_apply, val_main_v1_apply, val_main_c_apply, val_main_v7_apply, val_main_c_1_apply, val_main_v11_apply,
    val_main_v9_apply, val_main_v5_apply, val_main_v3_apply, val_main_v4_apply, val_main_c_0_apply]
  exact Cert.FlatIndexWords.row_col_word (k 0).val (k 0).isLt

/-- The wrap-around of negative indices changes nothing: position n still holds the word n. -/
theorem wrapped_index (k : S64800.Idx) : val_main_v19 (F := Ideal) k = BitVec.ofNat 32 (k 0).val := by
  rw [val_main_v19_apply, val_main_v16_apply, val_main_v15_apply, val_main_c_2_apply, flat_index]
  exact Cert.FlatIndexWords.wrap_small (k 0).val (k 0).isLt _

/-- THE INDEX COLUMN IS THE IDENTITY: entry (l, 0), read as a signed integer, is l. -/
theorem index_column (l : Fin 64800) :
    (val_main_v20 (F := Ideal) (ix2 l (⟨0, Nat.one_pos⟩ : Fin 1))).toInt = (l.val : Int) := by
  rw [val_main_v20_apply, wrapped_index]
  exact Cert.FlatIndexWords.toInt_small l.val l.isLt

/-- The array of zeros the reference scatters into. -/
theorem zeros (k : S4x192x64800.Idx) : val_main_v14 (F := Ideal) k = 0 := by
  rw [val_main_v14_apply, val_main_cst_apply]
  exact Ideal.ofBits_zero_f32

/-- The scatter-add returns its updates: each lands on the zero at its own position. -/
theorem scatter_eq (x : FVec Ideal S4x192x64800 .f32) : val_main_v21 (F := Ideal) x = x := by
  funext k
  unfold val_main_v21
  refine (ScatterLastAxis.scatterAdd_identity_apply scatter_S4x192x64800_S64800x1_S4x192x64800_01_2_2_1_wf
    (val_main_v14 (F := Ideal)) (val_main_v20 (F := Ideal)) x index_column k).trans ?_
  rw [zeros, zero_add]

/-- THE REFERENCE'S RESULT IS THE IMAGE of its argument. -/
theorem result_eq (x : FVec Ideal S4x192x64800 .f32) : val_main_v22 (F := Ideal) x = Cert.FoldSpec.image x := by
  unfold val_main_v22
  rw [scatter_eq]
  exact Cert.FoldSpec.shapeCast_eq_image x _

/-- The reference's run, re-posted: the result holds the image of the argument, which is unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = Cert.FoldSpec.image (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v22_eq _).trans (result_eq _)), (h c).2⟩)
    (Cert.ReferenceIdeal.Value.run (F := Ideal) m ρ)

end Cert.ReferenceIdeal.RefValue

end
-- ==== Proof.KernelValue.lean ====
/-
  The kernel computes the image.

  The kernel views the argument as 768 rows of 64800 columns (a reshape), copies the rows sixteen at a time — grid point
  t reads rows 16·t … 16·t + 15 and writes them back to the same rows of the result —, and reshapes the copy to
  [4, 192, 180, 360]. Each written block is the same block of the rows-by-columns view; the 48 blocks cover all 768
  rows; so the copied array is the view itself, and the two reshapes together are the image.
-/
import proofs.«158821_g20031727468695_cont_8to1_495_2_alg».proof.Proof.Gen.KernelIdeal.Frame
import proofs.«158821_g20031727468695_cont_8to1_495_2_alg».proof.Proof.FoldSpec
import Idealize.ShloMosaic.Lib.Pipeline.Value
import Idealize.ShloMosaic.Lib.StableHlo.Run

set_option maxRecDepth 16384

noncomputable section

namespace Cert.KernelIdeal.CopyValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The rows-by-columns view the region reads -/

/-- The region finds, in the buffer its input window reads, the argument reshaped to 768 rows by 64800 columns. -/
theorem rows_entry (c : Dev nD) :
    (V m c main_v0 : S768x64800.Idx → Elt F .f32)
      = shapeCast S768x64800 (m ((c : Thread nD τ).loc main_arg0)) shapeCasts_S4x192x64800_S768x64800 := by
  show StableHlo.after hostOps0 (fun b => m (c, b)) (Proc.devRef .tc main_v0) = _
  after_results
  rfl

/-! ## What a grid point writes back -/

theorem zero_offsets : (![0, 0] : Fin 2 → Nat) = fun _ => 0 := funext fun a => by fin_cases a <;> rfl

/-- The body stores what it loaded: a shape cast to the same shape is the identity. -/
theorem payload_eq (x0 : Vec F S16x64800 .f32) : k0_pay1 x0 = x0 := by
  unfold k0_pay1
  exact shapeCast_self x0 _

/-- The input and the output window are at the same block of rows at every grid point. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- WHAT POINT t WRITES BACK is block t of the rows-by-columns view. -/
theorem written_back (c : Dev nD) (t : Fin cfg0.N) :
    (dats m 0 c).flushed 1 t = ((cfg0.win 1).blk t).view.read (Elt F) (V m c main_v0 : S768x64800.Idx → Elt F .f32) := by
  show (cfg0.win 1).cut (grid0.coords t) ((dats m 0 c).after 1 t) = _
  rw [after0_1]
  unfold out0_1
  rw [View.canon_unit_zero zero_offsets]
  simp only [View.ld_unit_zero (S := S16x64800) zero_offsets]
  rw [payload_eq]
  obtain ⟨e0, e1⟩ := same_block t
  funext j
  show V m c main_v0 (((cfg0.win 0).blk t).view.emb j) = V m c main_v0 (((cfg0.win 1).blk t).view.emb j)
  have h : ((cfg0.win 0).blk t).view.emb j = ((cfg0.win 1).blk t).view.emb j := by
    funext a; apply Fin.ext
    match a with
    | ⟨0, _⟩ => show win0_0.index t (0 : Fin 2) * 16 + 1 * (j 0).val = win0_1.index t (0 : Fin 2) * 16 + 1 * (j 0).val; omega
    | ⟨1, _⟩ => show win0_0.index t (1 : Fin 2) * 64800 + 1 * (j 1).val = win0_1.index t (1 : Fin 2) * 64800 + 1 * (j 1).val; omega
  rw [h]

/-! ## The blocks cover the rows -/

/-- A position of the result is in point t's block iff each coordinate is in the block's range on its axis. -/
theorem mem_block (t : Fin cfg0.N) (i : S768x64800.Idx) :
    i ∈ ((cfg0.win 1).blk t).view.set ↔ ∀ a : Fin 2, win0_1.index t a * S16x64800.size a ≤ (i a).val
      ∧ (i a).val < win0_1.index t a * S16x64800.size a + S16x64800.size a := by
  show i ∈ ((View.whole main_v1).slice (win0_1.rect t)).set ↔ _
  rw [View.set_slice_whole, Rect.mem_set_unit]
  exact Iff.rfl

/-- Every block of sixteen rows is some grid point's. -/
theorem block_onto : ∀ q : Fin 48, ∃ t : Fin cfg0.N, win0_1.index t = ![q.val, 0] :=
  (by decide +kernel : ∀ q : Fin 48, ∃ t : Fin grid0.N, win0_1.index t = ![q.val, 0])

/-- Row r is written by the point whose block holds it, r / 16. -/
theorem covered (i : S768x64800.Idx) :
    ∃ t : Fin cfg0.N, (cfg0.win 1).flush t = true ∧ i ∈ ((cfg0.win 1).blk t).view.set := by
  have h0 : (i 0).val < 768 := (i 0).isLt
  have h1 : (i 1).val < 64800 := (i 1).isLt
  obtain ⟨t, ht⟩ := block_onto ⟨(i 0).val / 16, by omega⟩
  have q0 : win0_1.index t (0 : Fin 2) = (i 0).val / 16 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 16 ≤ (i 0).val ∧ (i 0).val < win0_1.index t (0 : Fin 2) * 16 + 16; omega
  | ⟨1, _⟩ => show win0_1.index t (1 : Fin 2) * 64800 ≤ (i 1).val ∧ (i 1).val < win0_1.index t (1 : Fin 2) * 64800 + 64800; omega

/-- THE COPIED ARRAY after the run is the rows-by-columns view. -/
theorem copied (c : Dev nD) : (dats m 0 c).arrAt 1 cfg0.N = (V m c main_v0 : S768x64800.Idx → Elt F .f32) :=
  (dats m 0 c).arrAt_eq_of_cover 1 (V m c main_v0 : S768x64800.Idx → Elt F .f32) (fun t _ => written_back m c t) covered

/-! ## The reshape after the region, and the run -/

/-- THE KERNEL'S RESULT IS THE IMAGE of its argument. -/
theorem result_eq (c : Dev nD) :
    Pipeline.afterTail₀ cfgs (dats m) 0 (V0 m) [hostOps1] c main_v2
      = Cert.FoldSpec.image (m ((c : Thread nD τ).loc main_arg0)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = (V m c main_v0 : S768x64800.Idx → Elt F .f32) :=
    (Pipeline.withArrays_arr spec0 launch0.win.arr_inj c _ _ 1).trans (copied m c)
  rw [hw, rows_entry]
  exact Cert.FoldSpec.shapeCast_flat_eq_image _ _ _

/-- The kernel's run, re-posted: the result holds the image of the argument, which is unchanged. -/
theorem run : θ_run defs (onTc (τ := τ) (main (F := F))) ⟨m, fun _ => 0, ρ⟩ fun r => ∀ c : Dev nD,
      r.2.mem ((c.tc : Thread nD τ).loc main_v2) = Cert.FoldSpec.image (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.CopyValue

end
-- ==== Proof.lean ====
/-
  A blocked copy against a fold with a 1 × 1 kernel: both are one re-indexing of the argument.

  The argument x has shape [4, 192, 64800]. The reference folds its last axis into a 180 × 360 image by scattering
  column n to pixel (lh, lw) with lh·360 + lw = n, summing overlaps into an array of zeros; with a 1 × 1 kernel, unit
  stride and no padding no two columns overlap, the flat index of column n is n, and the result at (a, b, h, w) is
  0 + x[a, b, 360·h + w]. The kernel reshapes x to 768 rows, copies the rows in 48 blocks of sixteen, and reshapes the
  copy to [4, 192, 180, 360]: a reshape keeps row-major positions, so its result at (a, b, h, w) is x[a, b, 360·h + w]
  as well. The one arithmetic step, 0 + x = x, holds for every extended real, so the precondition that the inputs are
  finite is never opened.

  Modules: FoldSpec (the image x ↦ x[a, b, 360·h + w], and the reshapes read at an index), LibScatterLastAxis (a
  scatter-add along the last axis by the identity index column returns operand plus update), FlatIndexWords (the 32-bit
  arithmetic of the flat index), RefValue (the reference's result is the image), KernelValue (the kernel's result is the
  image). The three frames are the generated frame runs; the idealization rewrote nothing, so `preserves` is trivial.
-/
import proofs.«158821_g20031727468695_cont_8to1_495_2_alg».proof.Defs
import proofs.«158821_g20031727468695_cont_8to1_495_2_alg».proof.Proof.Gen.Kernel
import proofs.«158821_g20031727468695_cont_8to1_495_2_alg».proof.Proof.Gen.Kernel.Skeleton
import proofs.«158821_g20031727468695_cont_8to1_495_2_alg».proof.Proof.Gen.Kernel.Launch
import proofs.«158821_g20031727468695_cont_8to1_495_2_alg».proof.Proof.Gen.Kernel.Points
import proofs.«158821_g20031727468695_cont_8to1_495_2_alg».proof.Proof.Gen.Kernel.Frame
import proofs.«158821_g20031727468695_cont_8to1_495_2_alg».proof.Proof.Gen.KernelIdeal
import proofs.«158821_g20031727468695_cont_8to1_495_2_alg».proof.Proof.Gen.KernelIdeal.Skeleton
import proofs.«158821_g20031727468695_cont_8to1_495_2_alg».proof.Proof.Gen.KernelIdeal.Launch
import proofs.«158821_g20031727468695_cont_8to1_495_2_alg».proof.Proof.Gen.KernelIdeal.Points
import proofs.«158821_g20031727468695_cont_8to1_495_2_alg».proof.Proof.Gen.KernelIdeal.Frame
import proofs.«158821_g20031727468695_cont_8to1_495_2_alg».proof.Proof.Gen.ReferenceIdeal
import proofs.«158821_g20031727468695_cont_8to1_495_2_alg».proof.Proof.Gen.Pre_finite_inputs
import proofs.«158821_g20031727468695_cont_8to1_495_2_alg».proof.Proof.Gen.ReferenceIdeal.Run
import proofs.«158821_g20031727468695_cont_8to1_495_2_alg».proof.Proof.Gen.ReferenceIdeal.Read
import proofs.«158821_g20031727468695_cont_8to1_495_2_alg».proof.Proof.RefValue
import proofs.«158821_g20031727468695_cont_8to1_495_2_alg».proof.Proof.KernelValue
import Idealize.ShloMosaic.Adequacy
import Idealize.ShloMosaic.Init

noncomputable section

namespace Cert.Proof

open Idealize.ShloMosaic Idealize.SL.Sem

/-- The word-level kernel runs and leaves its argument alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the argument, the idealized kernel and the idealized reference both end holding the image
    of that argument: x[a, b, 360·h + w] at (a, b, h, w). -/
theorem algebraic : Cert.algebraic_KernelIdeal_ReferenceIdeal := by
  intro m ρ m' ρ' _ hagree
  refine ⟨fun c => Cert.FoldSpec.image (m ((c.tc : Thread Cert.KernelIdeal.nD Cert.KernelIdeal.τ).loc Cert.KernelIdeal.main_arg0)),
    Cert.KernelIdeal.CopyValue.run (F := Ideal) m ρ, ?_⟩
  refine (θ_run Cert.ReferenceIdeal.defs _ _).mono (fun _ h c => ⟨?_, (h c).2⟩)
    (Cert.ReferenceIdeal.RefValue.run m' ρ')
  rw [(h c).1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
